-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.MatAssoc.lean ====
/-
  A triple matrix product may be bracketed either way when every entry is a real number.

  For a row `a : K → EReal`, a matrix `x : K → J → EReal` and a column `w : J → EReal` whose entries are all real,
      ∑ j, (∑ k, a k * x k j) * w j  =  ∑ k, a k * (∑ j, x k j * w j).
  Over ℝ this is distributivity of the product over the two finite sums followed by an exchange of the order of summation.
  On the extended reals distributivity fails at the infinities (`⊤ + ⊥ = ⊥`), which is why the entries are required to be real:
  each entry is written as the coercion of a real, the coercion is pushed out of the products and of the finite sums, and the
  identity is then the one in ℝ.
-/
import Idealize.ShloMosaic.PureOps.Ideal

namespace Cert.Gcn

/-- An extended real that is a real number (neither infinity). -/
def IsReal (x : EReal) : Prop := ∃ r : ℝ, x = (r : EReal)

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over ℝ: `(a · x) · w = a · (x · w)` for a row, a matrix and a column. -/
theorem row_mat_col_assoc_real {K J : Type*} [Fintype K] [Fintype J] (a : K → ℝ) (x : K → J → ℝ) (w : J → ℝ) :
    ∑ j, (∑ k, a k * x k j) * w j = ∑ k, a k * ∑ j, x k j * w j := by
  simp only [Finset.sum_mul, Finset.mul_sum]
  rw [Finset.sum_comm]
  exact Finset.sum_congr rfl fun k _ => Finset.sum_congr rfl fun j _ => by ring

/-- The same on the extended reals, for real entries. -/
theorem row_mat_col_assoc {K J : Type*} [Fintype K] [Fintype J] (a : K → EReal) (x : K → J → EReal) (w : J → EReal)
    (ha : ∀ k, IsReal (a k)) (hx : ∀ k j, IsReal (x k j)) (hw : ∀ j, IsReal (w j)) :
    ∑ j, (∑ k, a k * x k j) * w j = ∑ k, a k * ∑ j, x k j * w j := by
  choose a' ha' using ha
  choose x' hx' using hx
  choose w' hw' using hw
  simp only [ha', hx', hw', ← EReal.coe_mul, ← coe_sum]
  exact congrArg _ (row_mat_col_assoc_real a' x' w')

end Cert.Gcn
-- ==== Proof.Finite.lean ====
/-
  The precondition read back: every entry of the three argument arrays is a real number.

  The precondition is the conjunction, over the three arrays, of `all (|x| < +∞)`. At the extended reals `|x|` is
  `max x (-x)`, which is `+∞` exactly at the two infinities; so `|x| < +∞` says that `x` is real.
-/
import proofs.«161624_g49091476193430_cont_8to1_c_377_8_alg».proof.Pre_finite_inputs
import proofs.«161624_g49091476193430_cont_8to1_c_377_8_alg».proof.Proof.MatAssoc
import Idealize.ShloMosaic.PureOps.Ideal
import Idealize.ShloMosaic.Lib.ReduceAll
import Idealize.ShloMosaic.Lib.ValueIdx

noncomputable section

namespace Cert.Gcn

open Idealize.ShloMosaic

/-- The f32 word of `+∞` denotes `⊤`. -/
theorem ofBits_inf : Ideal.ofBits .f32 0x7F800000#32 = (⊤ : EReal) := by
  simp [Ideal.ofBits, Ideal.ieee]

/-- `|x| < +∞` holds only of a real `x`. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

variable [Cert.Pre_finite_inputs.Facts]

/-- Under the precondition every entry of every argument array is real. -/
theorem entries_real (x0 : FVec Ideal Cert.Pre_finite_inputs.S10000x128 .f32) (x1 : FVec Ideal Cert.Pre_finite_inputs.S10000x10000 .f32)
    (x2 : FVec Ideal Cert.Pre_finite_inputs.S128x128 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => isReal_of_abs_lt (x0 i) (Host.reduce_andi_all _ _ _ _ _ h0' i),
    fun i => isReal_of_abs_lt (x1 i) (Host.reduce_andi_all _ _ _ _ _ h1 i),
    fun i => isReal_of_abs_lt (x2 i) (Host.reduce_andi_all _ _ _ _ _ h2 i)⟩

end Cert.Gcn

end
-- ==== Proof.BodyAt.lean ====
/-
  The kernel body at one index of its output block.

  The body multiplies its block of 400 rows of the adjacency matrix by the whole feature matrix, and the product by the
  whole weight matrix, each product accumulated into a zero block. At the extended reals a matrix product into zero is,
  entry by entry, the sum over the contracted index of the factors' products; so entry `(p, q)` of the block the body stores is
      ∑ j, (∑ k, a (p, k) * x (k, j)) * w (j, q).
-/
import proofs.«161624_g49091476193430_cont_8to1_c_377_8_alg».proof.Proof.Gen.KernelIdeal.Skeleton
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! In both products the left factor is indexed (row of the result, contracted position) and the right factor
    (contracted position, column of the result). -/

theorem agg_lhs_row (i : S400x128.Idx) (z : dot_S400x10000_S10000x128_S400x128_1_0_0_1_n_n.contr.Idx) : (dot_S400x10000_S10000x128_S400x128_1_0_0_1_n_n.lhsIdx i z 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_rhs_col (i : S400x128.Idx) (z : dot_S400x10000_S10000x128_S400x128_1_0_0_1_n_n.contr.Idx) : (dot_S400x10000_S10000x128_S400x128_1_0_0_1_n_n.rhsIdx i z 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem proj_lhs_row (i : S400x128.Idx) (z : dot_S400x128_S128x128_S400x128_1_0_0_1_n_n.contr.Idx) : (dot_S400x128_S128x128_S400x128_1_0_0_1_n_n.lhsIdx i z 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem proj_rhs_col (i : S400x128.Idx) (z : dot_S400x128_S128x128_S400x128_1_0_0_1_n_n.contr.Idx) : (dot_S400x128_S128x128_S400x128_1_0_0_1_n_n.rhsIdx i z 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The first product, rows of the adjacency block against the feature matrix, at entry `(p, j)`: the sum over the
    10000 contracted positions. -/
theorem rows_times_features (a : FVec Ideal S400x10000 .f32) (x : FVec Ideal S10000x128 .f32) (p : Fin 400) (j : Fin 128) :
    matmul dot_S400x10000_S10000x128_S400x128_1_0_0_1_n_n none a x (constant S400x128 .f32 0x00000000#32) (ix2 p j)
      = ∑ k : Fin 10000, a (ix2 p k) * x (ix2 k j) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun d => Fin.ext (by
    match d with
    | ⟨0, _⟩ => exact agg_lhs_row _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun d => Fin.ext (by
    match d with
    | ⟨0, _⟩ => exact (dot_S400x10000_S10000x128_S400x128_1_0_0_1_n_n.rhsIdx_val_of_single rfl _ _).trans hk
    | ⟨1, _⟩ => exact agg_rhs_col _ _)
  rw [el, er]

/-- The second product, that block against the weight matrix, at entry `(p, q)`: the sum over the 128 contracted
    positions. -/
theorem block_times_weights (y : FVec Ideal S400x128 .f32) (w : FVec Ideal S128x128 .f32) (p : Fin 400) (q : Fin 128) :
    matmul dot_S400x128_S128x128_S400x128_1_0_0_1_n_n none y w (constant S400x128 .f32 0x00000000#32) (ix2 p q)
      = ∑ k : Fin 128, y (ix2 p k) * w (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun d => Fin.ext (by
    match d with
    | ⟨0, _⟩ => exact proj_lhs_row _ _
    | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q := funext fun d => Fin.ext (by
    match d with
    | ⟨0, _⟩ => exact (dot_S400x128_S128x128_S400x128_1_0_0_1_n_n.rhsIdx_val_of_single rfl _ _).trans hk
    | ⟨1, _⟩ => exact proj_rhs_col _ _)
  rw [el, er]

/-- The block the body stores, at entry `(p, q)`. -/
theorem stored_apply (a : Vec Ideal S400x10000 .f32) (x : Vec Ideal S10000x128 .f32) (w : Vec Ideal S128x128 .f32) (p : Fin 400) (q : Fin 128) :
    k0_pay1 a x w (ix2 p q) = ∑ j : Fin 128, (∑ k : Fin 10000, a (ix2 p k) * x (ix2 k j)) * w (ix2 j q) := by
  unfold k0_pay1
  refine (block_times_weights _ w p q).trans ?_
  exact Finset.sum_congr rfl fun j _ => congrArg (· * w (ix2 j q)) (rows_times_features a x p j)

end Cert.KernelIdeal.Body

end
-- ==== Proof.Spec.lean ====
/-
  The layer's result as one function of the three argument arrays, in the two bracketings.

  With features `X` (10000 × 128), adjacency `A` (10000 × 10000) and weights `W` (128 × 128), entry `(r, c)` of
  `A · (X · W)` is `∑ k, A (r, k) * ∑ j, X (k, j) * W (j, c)` — aggregate the projected features —, and entry `(r, c)` of
  `(A · X) · W` is `∑ j, (∑ k, A (r, k) * X (k, j)) * W (j, c)` — project the aggregated features. When every entry of the
  three arrays is real the two agree (associativity of the matrix product).
-/
import proofs.«161624_g49091476193430_cont_8to1_c_377_8_alg».proof.Proof.MatAssoc
import Idealize.ShloMosaic.Lib.ValueIdx

noncomputable section

namespace Cert.Gcn

open Idealize.ShloMosaic Idealize.ShloMosaic.ValueIdx

/-- `A · (X · W)`, entry by entry. -/
def aggregateProjected (X : (⟨2, ![10000, 128]⟩ : Shape).Idx → EReal) (A : (⟨2, ![10000, 10000]⟩ : Shape).Idx → EReal)
    (W : (⟨2, ![128, 128]⟩ : Shape).Idx → EReal) : (⟨2, ![10000, 128]⟩ : Shape).Idx → EReal :=
  fun i => ∑ k : Fin 10000, A (ix2 (i 0) k) * ∑ j : Fin 128, X (ix2 k j) * W (ix2 j (i 1))

/-- `(A · X) · W`, entry by entry. -/
def projectAggregated (X : (⟨2, ![10000, 128]⟩ : Shape).Idx → EReal) (A : (⟨2, ![10000, 10000]⟩ : Shape).Idx → EReal)
    (W : (⟨2, ![128, 128]⟩ : Shape).Idx → EReal) : (⟨2, ![10000, 128]⟩ : Shape).Idx → EReal :=
  fun i => ∑ j : Fin 128, (∑ k : Fin 10000, A (ix2 (i 0) k) * X (ix2 k j)) * W (ix2 j (i 1))

/-- For real entries the two bracketings are one function. -/
theorem projectAggregated_eq (X : (⟨2, ![10000, 128]⟩ : Shape).Idx → EReal) (A : (⟨2, ![10000, 10000]⟩ : Shape).Idx → EReal)
    (W : (⟨2, ![128, 128]⟩ : Shape).Idx → EReal) (hX : ∀ i, IsReal (X i)) (hA : ∀ i, IsReal (A i)) (hW : ∀ i, IsReal (W i)) :
    projectAggregated X A W = aggregateProjected X A W :=
  funext fun i => row_mat_col_assoc (fun k : Fin 10000 => A (ix2 (i 0) k)) (fun (k : Fin 10000) (j : Fin 128) => X (ix2 k j))
    (fun j : Fin 128 => W (ix2 j (i 1))) (fun _ => hA _) (fun _ _ => hX _) (fun _ => hW _)

end Cert.Gcn

end
-- ==== Proof.KernelValue.lean ====
/-
  From the blocks to the array: after the run the result array holds `(A · X) · W`.

  The grid has 25 points. Point `t` reads rows `400 t … 400 t + 399` of the adjacency matrix `A`, the whole feature matrix `X`
  and the whole weight matrix `W`, and writes rows `400 t … 400 t + 399` of the result. Entry `(p, q)` of what it writes is
  `∑ j, (∑ k, A (400 t + p, k) * X (k, j)) * W (j, q)`, which is entry `(400 t + p, q)` of `(A · X) · W`: every point writes its
  block of one whole-array function. Row `r` lies in the block of point `r / 400`, so the 25 blocks cover the array, and the
  array ends holding that function.
-/
import proofs.«161624_g49091476193430_cont_8to1_c_377_8_alg».proof.Proof.Gen.KernelIdeal.Value
import proofs.«161624_g49091476193430_cont_8to1_c_377_8_alg».proof.Proof.BodyAt
import proofs.«161624_g49091476193430_cont_8to1_c_377_8_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx

/-- One stored entry against one entry of `(A · X) · W`: if the adjacency block's row `y 0` is row `i 0` of `A`, the
    feature and weight blocks are `X` and `W`, and the columns `y 1` and `i 1` agree, then the entry the body stores at `y`
    is the entry of `(A · X) · W` at `i`. -/
theorem stored_entry (X : S10000x128.Idx → EReal) (A : S10000x10000.Idx → EReal) (W : S128x128.Idx → EReal)
    (a : Vec Ideal S400x10000 .f32) (x : Vec Ideal S10000x128 .f32) (w : Vec Ideal S128x128 .f32)
    (y : S400x128.Idx) (i : S10000x128.Idx)
    (ha : ∀ k : Fin 10000, a (ix2 (y 0) k) = A (ix2 (i 0) k))
    (hx : ∀ (k : Fin 10000) (j : Fin 128), x (ix2 k j) = X (ix2 k j))
    (hw : ∀ j : Fin 128, w (ix2 j (y 1)) = W (ix2 j (i 1))) :
    k0_pay1 a x w y = Cert.Gcn.projectAggregated X A W i := by
  obtain ⟨p, q, rfl⟩ : ∃ (p : Fin 400) (q : Fin 128), y = ix2 p q := ⟨y 0, y 1, eq_ix2 y⟩
  rw [Body.stored_apply]
  unfold Cert.Gcn.projectAggregated
  exact Finset.sum_congr rfl fun j _ =>
    congrArg₂ (· * ·) (Finset.sum_congr rfl fun k _ => congrArg₂ (· * ·) (ha k) (hx k j)) (hw j)

variable (m : (ℓ : Loc nD τ sig) → Buf (Elt Ideal) ℓ) (ρ : Dev nD → PrngReg)

theorem offsets_zero : (![0, 0] : Fin 2 → Nat) = fun _ => 0 := funext fun a => by fin_cases a <;> rfl

/-- The block each window holds at grid point `t`: the feature and weight windows always block `(0, 0)` (the whole
    array), the adjacency and result windows row block `t`. Decided over the 25 points. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- `(A · X) · W` of the argument arrays as the region finds them. -/
abbrev result (c : Dev nD) : Buf (Elt Ideal) ((c : Thread nD τ).loc main_v0) :=
  Cert.Gcn.projectAggregated (V m c main_arg0) (V m c main_arg1) (V m c main_arg2)

/-- What grid point `t` writes back is block `t` of `(A · X) · W`. -/
theorem flushed_eq (c : Dev nD) (t : Fin cfg0.N) :
    (dats m 0 c).flushed 3 t = ((cfg0.win 3).blk t).view.read (Elt Ideal) (result m c) := by
  rw [flushed3]
  unfold out0_3
  rw [View.canon_unit_zero offsets_zero]
  simp only [View.ld_unit_zero (S := S400x10000) offsets_zero, View.ld_unit_zero (S := S10000x128) offsets_zero,
    View.ld_unit_zero (S := S128x128) offsets_zero]
  obtain ⟨e00, e01, e10, e11, e20, e21, e30, e31⟩ := block_index t
  funext y
  show k0_pay1 (iblk m c 1 t) (iblk m c 0 t) (iblk m c 2 t) y = result m c (((cfg0.win 3).blk t).view.emb y)
  refine stored_entry (V m c main_arg0) (V m c main_arg1) (V m c main_arg2) (iblk m c 1 t) (iblk m c 0 t) (iblk m c 2 t) y
    (((cfg0.win 3).blk t).view.emb y) (fun k => ?_) (fun k j => ?_) (fun j => ?_)
  · show V m c main_arg1 (((cfg0.win 1).blk t).view.emb (ix2 (y 0) k)) = V m c main_arg1 (ix2 ((((cfg0.win 3).blk t).view.emb y) 0) k)
    refine congrArg (V m c main_arg1) (funext fun d => Fin.ext ?_)
    match d with
    | ⟨0, _⟩ => show win0_1.index t (0 : Fin 2) * 400 + 1 * (y 0).val = win0_3.index t (0 : Fin 2) * 400 + 1 * (y 0).val; rw [e10, e30]
    | ⟨1, _⟩ => show win0_1.index t (1 : Fin 2) * 10000 + 1 * k.val = k.val; rw [e11]; omega
  · show V m c main_arg0 (((cfg0.win 0).blk t).view.emb (ix2 k j)) = V m c main_arg0 (ix2 k j)
    refine congrArg (V m c main_arg0) (funext fun d => Fin.ext ?_)
    match d with
    | ⟨0, _⟩ => show win0_0.index t (0 : Fin 2) * 10000 + 1 * k.val = k.val; rw [e00]; omega
    | ⟨1, _⟩ => show win0_0.index t (1 : Fin 2) * 128 + 1 * j.val = j.val; rw [e01]; omega
  · show V m c main_arg2 (((cfg0.win 2).blk t).view.emb (ix2 j (y 1))) = V m c main_arg2 (ix2 j ((((cfg0.win 3).blk t).view.emb y) 1))
    refine congrArg (V m c main_arg2) (funext fun d => Fin.ext ?_)
    match d with
    | ⟨0, _⟩ => show win0_2.index t (0 : Fin 2) * 128 + 1 * j.val = j.val; rw [e20]; omega
    | ⟨1, _⟩ => show win0_2.index t (1 : Fin 2) * 128 + 1 * (y 1).val = win0_3.index t (1 : Fin 2) * 128 + 1 * (y 1).val; rw [e21, e31]

/-- An index of the result array is in point `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Row `r` of the result lies in the block of grid point `r / 400`: the 25 blocks cover the array. -/
theorem covered (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, e30, e31⟩ := block_index t
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; rw [e30, ht]; omega
  | ⟨1, _⟩ => show win0_3.index t (1 : Fin 2) * 128 ≤ (i 1).val ∧ (i 1).val < win0_3.index t (1 : Fin 2) * 128 + 128; rw [e31]; omega

/-- So the result array ends holding `(A · X) · W`. -/
theorem final (c : Dev nD) : (dats m 0 c).arrAt 3 cfg0.N = result m c :=
  (dats m 0 c).arrAt_eq_of_cover 3 (result m c) (fun t _ => flushed_eq m c t) covered

/-- The run, read: the result array at `(A · X) · W` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Hand

end
-- ==== Proof.RefValue.lean ====
/-
  The reference's result, entry by entry: `A · (X · W)`.

  The reference is two host matrix products, the support `X · W` and then `A` times it. At the extended reals each is,
  entry by entry, the sum over its contracted index; composing the two gives entry `(r, c)` as
  `∑ k, A (r, k) * ∑ j, X (k, j) * W (j, c)`.
-/
import proofs.«161624_g49091476193430_cont_8to1_c_377_8_alg».proof.Proof.Gen.ReferenceIdeal.Read
import proofs.«161624_g49091476193430_cont_8to1_c_377_8_alg».proof.Proof.Spec

noncomputable section

namespace Cert.ReferenceIdeal.Hand

open Cert.ReferenceIdeal Cert.ReferenceIdeal.Read Idealize.ShloMosaic Idealize.ShloMosaic.ValueIdx

/-- The reference's two products composed are `A · (X · W)`. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.Gcn.aggregateProjected x0 x1 x2 := by
  funext i
  have eA : ∀ k : Fin 10000, lidx_main_v1 i k = ix2 (i 0) k := fun k =>
    funext fun a => by match a with | ⟨0, _⟩ => rfl | ⟨1, _⟩ => rfl
  have eX : ∀ (k : Fin 10000) (j : Fin 128), lidx_main_v0 (ridx_main_v1 i k) j = ix2 k j := fun k j =>
    funext fun a => by match a with | ⟨0, _⟩ => rfl | ⟨1, _⟩ => rfl
  have eW : ∀ (k : Fin 10000) (j : Fin 128), ridx_main_v0 (ridx_main_v1 i k) j = ix2 j (i 1) := fun k j =>
    funext fun a => by match a with | ⟨0, _⟩ => rfl | ⟨1, _⟩ => rfl
  rw [val_main_v1_apply]
  unfold Cert.Gcn.aggregateProjected
  refine Finset.sum_congr rfl fun k _ => ?_
  rw [val_main_v0_apply, eA]
  refine congrArg (x1 (ix2 (i 0) k) * ·) (Finset.sum_congr rfl fun j _ => ?_)
  rw [eX, eW]
  rfl

end Cert.ReferenceIdeal.Hand

end
-- ==== Proof.lean ====
/-
  A graph-convolution layer computed as `(A · X) · W` against its reference `A · (X · W)`, over the extended reals.

  The kernel walks the 10000 rows of the adjacency matrix `A` in 25 blocks of 400. For each block it forms the block's
  product with the whole feature matrix `X` (10000 × 128) and multiplies that by the whole weight matrix `W` (128 × 128);
  the 25 results are the row blocks of the output. The reference forms the support `X · W` once and multiplies `A` by it.

  * Entry `(r, c)` of the kernel's output is `∑ j, (∑ k, A (r, k) * X (k, j)) * W (j, c)`: each matrix product into a zero
    accumulator is, entry by entry, the sum over the contracted index (Proof/BodyAt.lean); the 25 row blocks cover the
    output, and each is its block of this one function of the whole arrays (Proof/KernelValue.lean).
  * Entry `(r, c)` of the reference's output is `∑ k, A (r, k) * ∑ j, X (k, j) * W (j, c)` (Proof/RefValue.lean).
  * The two are equal when every entry of `A`, `X` and `W` is a real number: distribute both products over the sums and
    exchange the order of summation (Proof/MatAssoc.lean, Proof/Spec.lean). On the extended reals distributivity fails at
    the infinities, so this is where the precondition is used: it says `|x| < +∞` of every entry, that is, that every
    entry is real (Proof/Finite.lean).

  The kernel's idealization rewrote no operation, so there is nothing to preserve; the three programs' runs terminate
  without fault and leave their arguments unchanged.
-/
import proofs.«161624_g49091476193430_cont_8to1_c_377_8_alg».proof.Defs
import proofs.«161624_g49091476193430_cont_8to1_c_377_8_alg».proof.Proof.Gen.Kernel
import proofs.«161624_g49091476193430_cont_8to1_c_377_8_alg».proof.Proof.Gen.Kernel.Frame
import proofs.«161624_g49091476193430_cont_8to1_c_377_8_alg».proof.Proof.Gen.KernelIdeal
import proofs.«161624_g49091476193430_cont_8to1_c_377_8_alg».proof.Proof.Gen.KernelIdeal.Frame
import proofs.«161624_g49091476193430_cont_8to1_c_377_8_alg».proof.Proof.Gen.KernelIdeal.Value
import proofs.«161624_g49091476193430_cont_8to1_c_377_8_alg».proof.Proof.Gen.ReferenceIdeal
import proofs.«161624_g49091476193430_cont_8to1_c_377_8_alg».proof.Proof.Gen.ReferenceIdeal.Run
import proofs.«161624_g49091476193430_cont_8to1_c_377_8_alg».proof.Proof.Gen.ReferenceIdeal.Read
import proofs.«161624_g49091476193430_cont_8to1_c_377_8_alg».proof.Proof.Gen.Pre_finite_inputs
import proofs.«161624_g49091476193430_cont_8to1_c_377_8_alg».proof.Proof.Finite
import proofs.«161624_g49091476193430_cont_8to1_c_377_8_alg».proof.Proof.KernelValue
import proofs.«161624_g49091476193430_cont_8to1_c_377_8_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From arguments that agree and are real, the kernel ends at `(A · X) · W` and the reference at `A · (X · W)`: one array. -/
theorem algebraic : Cert.algebraic_KernelIdeal_ReferenceIdeal := by
  intro m ρ m' ρ' hpre hagree
  refine ⟨fun c => Cert.Gcn.aggregateProjected
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.Hand.run m ρ)
    obtain ⟨hX, hA, hW⟩ := Cert.Gcn.entries_real _ _ _ (hpre c)
    exact Cert.Gcn.projectAggregated_eq _ _ _ hX hA hW
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.Hand.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
